-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : IVec S16777216 32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  main_v3
-- ==== Kernel.lean ====
abbrev S16777216 : Shape := ⟨1, ![16777216]⟩
abbrev S131072x128 : Shape := ⟨2, ![131072, 128]⟩
abbrev S2x1x1 : Shape := ⟨3, ![2, 1, 1]⟩
abbrev S8192x128 : Shape := ⟨2, ![8192, 128]⟩
abbrev S1x1x1 : Shape := ⟨3, ![1, 1, 1]⟩
abbrev S1x128 : Shape := ⟨2, ![1, 128]⟩
abbrev S128 : Shape := ⟨1, ![128]⟩
abbrev S1 : Shape := ⟨1, ![1]⟩
abbrev S1x1 : Shape := ⟨2, ![1, 1]⟩
abbrev S_ : Shape := ⟨0, ![]⟩

abbrev nBuf : Space → Nat
  | .hbm => 15
  | .vmem => 10
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S131072x128, .f32⟩
  | .hbm, ⟨3, _⟩ => ⟨S131072x128, .i32⟩
  | .hbm, ⟨4, _⟩ => ⟨S2x1x1, .f32⟩
  | .hbm, ⟨5, _⟩ => ⟨S2x1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .i32⟩
  | .local _ .vmem, ⟨3, _⟩ => ⟨S8192x128, .i32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | .local _ .vmem, ⟨8, _⟩ => ⟨S1x128, .f32⟩
  | .local _ .vmem, ⟨9, _⟩ => ⟨S1x128, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v36 : BitVec 1 := Scalar.cmpi .eq arg1 c7_i32
  let v37 : BitVec 32 := Scalar.extui v36
  let c0_i32_16 : BitVec 32 := 0#32
  let v38 : BitVec 1 := Scalar.cmpi .ne v37 c0_i32_16
  v38

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16777216_S131072x128 : S16777216.ShapeCasts S131072x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S128 : S8192x128.Reduces [0] S128
  shapeCasts_S128_S1x128 : S128.ShapeCasts S1x128
  natLt_1_32 : 1 < 32
  reduces_S1x128_S1 : S1x128.Reduces [1] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .i32 = 32 ∨ (Rect.block (s := S131072x128) S8192x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16777216 : Shape := ⟨1, ![16777216]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S_, .i32⟩
  | .hbm, ⟨3, _⟩ => ⟨S16777216, .i32⟩
  | .hbm, ⟨4, _⟩ => ⟨S16777216, .i1⟩
  | .hbm, ⟨5, _⟩ => ⟨S16777216, .f32⟩
  | .hbm, ⟨6, _⟩ => ⟨S_, .f32⟩
  | .hbm, ⟨7, _⟩ => ⟨S16777216, .f32⟩
  | .hbm, ⟨8, _⟩ => ⟨S16777216, .f32⟩
  | .hbm, ⟨9, _⟩ => ⟨S_, .f32⟩
  | .hbm, ⟨10, _⟩ => ⟨S16777216, .f32⟩
  | .hbm, ⟨11, _⟩ => ⟨S16777216, .f32⟩
  | .hbm, ⟨12, _⟩ => ⟨S16777216, .f32⟩
  | .hbm, ⟨13, _⟩ => ⟨S_, .f32⟩
  | .hbm, ⟨14, _⟩ => ⟨S16777216, .f32⟩
  | .hbm, ⟨15, _⟩ => ⟨S16777216, .f32⟩
  | .hbm, ⟨16, _⟩ => ⟨S16777216, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S16777216, .f32⟩
  | .hbm, ⟨23, _⟩ => ⟨S16777216, .f32⟩
  | .hbm, ⟨24, _⟩ => ⟨S16777216, .i1⟩
  | .hbm, ⟨25, _⟩ => ⟨S16777216, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  reducesTo_S16777216_S_d0 : S16777216.ReducesTo [0] S_
  h_S_ : 0 < S_.numel

variable [Facts₀]

class Facts : Prop extends Facts₀ where

variable [Facts]
-- ==== Proof.Pieces.lean ====
/-
  What each control case of the kernel body leaves behind, as pure functions of what it loads.

  The body keeps two lane-wise accumulators of shape [1, 128] between grid points: one for the weighted log terms,
  one for the count of correct roundings. At every point it adds to each accumulator the column sums of the point's
  [8192, 128] block. At the first point of a core's run of eight points (case A) the accumulators are first reset to
  zero; at the last point of the run (case C) each accumulator is, after the addition, summed over its 128 lanes
  into the core's [1, 1, 1] output block. Case B is a point in between.
-/
import proofs.«174581_j77489799954598_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## A point in the middle of a run: each accumulator gains the block's column sums -/

/-- Case B, the log-term accumulator: what was there plus the column sums of the block's weighted log terms. -/
theorem logAcc_B (c : Dev nD) (i : grid0.Coords) (a2 : Memref sig .tc .vmem S8192x128 .f32) (h2 : a2.IsWhole) (a3 : Memref sig .tc .vmem S8192x128 .i32) (h3 : a3.IsWhole) (a4 : Memref sig .tc .vmem S1x1x1 .f32) (h4 : a4.IsWhole) (a5 : Memref sig .tc .vmem S1x1x1 .f32) (h5 : a5.IsWhole) (a6 : Memref sig .tc .vmem S1x128 .f32) (h6 : a6.IsWhole) (a7 : Memref sig .tc .vmem S1x128 .f32) (h7 : a7.IsWhole) (hc0 : ¬cond0_0 i) (hc1 : ¬cond0_1 i)
    (x0 : Vec F S8192x128 .f32) (x1 : Vec F S8192x128 .i32) (xs0 : Vec F S1x128 .f32) (xs1 : Vec F S1x128 .f32) :
    sout0_B_0 c i a2 h2 a3 h3 a4 h4 a5 h5 a6 h6 a7 h7 hc0 hc1 x0 x1 xs0 xs1 = k0_pay7 x0 x1 xs0 := by
  unfold sout0_B_0
  rw [View.read_writes_eq_canon _ _ _ (scover0_B_0 c i a2 h2 a3 h3 a4 h4 a5 h5 a6 h6 a7 h7 hc0 hc1 x0 x1 xs0 xs1)]
  unfold kernelRun0_B
  dsimp only
  sl_unfold_words
  rw [View.canon_unit_zero hz2]
  simp only [View.readAt_eq_ld, h2.read_unread, h3.read_unread, h6.read_unread, h7.read_unread, View.ld_unit_zero (S := S8192x128) hz2, View.ld_unit_zero (S := S1x128) hz2]

/-- Case B, the hit-count accumulator: what was there plus the column sums of the block's correct-rounding flags. -/
theorem hitAcc_B (c : Dev nD) (i : grid0.Coords) (a2 : Memref sig .tc .vmem S8192x128 .f32) (h2 : a2.IsWhole) (a3 : Memref sig .tc .vmem S8192x128 .i32) (h3 : a3.IsWhole) (a4 : Memref sig .tc .vmem S1x1x1 .f32) (h4 : a4.IsWhole) (a5 : Memref sig .tc .vmem S1x1x1 .f32) (h5 : a5.IsWhole) (a6 : Memref sig .tc .vmem S1x128 .f32) (h6 : a6.IsWhole) (a7 : Memref sig .tc .vmem S1x128 .f32) (h7 : a7.IsWhole) (hc0 : ¬cond0_0 i) (hc1 : ¬cond0_1 i)
    (x0 : Vec F S8192x128 .f32) (x1 : Vec F S8192x128 .i32) (xs0 : Vec F S1x128 .f32) (xs1 : Vec F S1x128 .f32) :
    sout0_B_1 c i a2 h2 a3 h3 a4 h4 a5 h5 a6 h6 a7 h7 hc0 hc1 x0 x1 xs0 xs1 = k0_pay8 x0 x1 xs1 := by
  unfold sout0_B_1
  rw [View.read_writes_eq_canon _ _ _ (scover0_B_1 c i a2 h2 a3 h3 a4 h4 a5 h5 a6 h6 a7 h7 hc0 hc1 x0 x1 xs0 xs1)]
  unfold kernelRun0_B
  dsimp only
  sl_unfold_words
  rw [View.canon_unit_zero hz2]
  simp only [View.readAt_eq_ld, h2.read_unread, h3.read_unread, h6.read_unread, h7.read_unread, View.ld_unit_zero (S := S8192x128) hz2, View.ld_unit_zero (S := S1x128) hz2]

/-! ## The last point of a run: the same addition, then the lane sums go to the output blocks -/

/-- Case C, the log-term accumulator: as in case B. -/
theorem logAcc_C (c : Dev nD) (i : grid0.Coords) (a2 : Memref sig .tc .vmem S8192x128 .f32) (h2 : a2.IsWhole) (a3 : Memref sig .tc .vmem S8192x128 .i32) (h3 : a3.IsWhole) (a4 : Memref sig .tc .vmem S1x1x1 .f32) (h4 : a4.IsWhole) (a5 : Memref sig .tc .vmem S1x1x1 .f32) (h5 : a5.IsWhole) (a6 : Memref sig .tc .vmem S1x128 .f32) (h6 : a6.IsWhole) (a7 : Memref sig .tc .vmem S1x128 .f32) (h7 : a7.IsWhole) (hc0 : ¬cond0_0 i) (hc1 : cond0_1 i)
    (x0 : Vec F S8192x128 .f32) (x1 : Vec F S8192x128 .i32) (xs0 : Vec F S1x128 .f32) (xs1 : Vec F S1x128 .f32) :
    sout0_C_0 c i a2 h2 a3 h3 a4 h4 a5 h5 a6 h6 a7 h7 hc0 hc1 x0 x1 xs0 xs1 = k0_pay7 x0 x1 xs0 := by
  unfold sout0_C_0
  rw [View.read_writes_eq_canon _ _ _ (scover0_C_0 c i a2 h2 a3 h3 a4 h4 a5 h5 a6 h6 a7 h7 hc0 hc1 x0 x1 xs0 xs1)]
  unfold kernelRun0_C
  dsimp only
  sl_unfold_words
  rw [View.canon_unit_zero hz2]
  simp only [View.readAt_eq_ld, h2.read_unread, h3.read_unread, h6.read_unread, h7.read_unread, View.ld_unit_zero (S := S8192x128) hz2, View.ld_unit_zero (S := S1x128) hz2]

/-- Case C, the hit-count accumulator: as in case B. -/
theorem hitAcc_C (c : Dev nD) (i : grid0.Coords) (a2 : Memref sig .tc .vmem S8192x128 .f32) (h2 : a2.IsWhole) (a3 : Memref sig .tc .vmem S8192x128 .i32) (h3 : a3.IsWhole) (a4 : Memref sig .tc .vmem S1x1x1 .f32) (h4 : a4.IsWhole) (a5 : Memref sig .tc .vmem S1x1x1 .f32) (h5 : a5.IsWhole) (a6 : Memref sig .tc .vmem S1x128 .f32) (h6 : a6.IsWhole) (a7 : Memref sig .tc .vmem S1x128 .f32) (h7 : a7.IsWhole) (hc0 : ¬cond0_0 i) (hc1 : cond0_1 i)
    (x0 : Vec F S8192x128 .f32) (x1 : Vec F S8192x128 .i32) (xs0 : Vec F S1x128 .f32) (xs1 : Vec F S1x128 .f32) :
    sout0_C_1 c i a2 h2 a3 h3 a4 h4 a5 h5 a6 h6 a7 h7 hc0 hc1 x0 x1 xs0 xs1 = k0_pay8 x0 x1 xs1 := by
  unfold sout0_C_1
  rw [View.read_writes_eq_canon _ _ _ (scover0_C_1 c i a2 h2 a3 h3 a4 h4 a5 h5 a6 h6 a7 h7 hc0 hc1 x0 x1 xs0 xs1)]
  unfold kernelRun0_C
  dsimp only
  sl_unfold_words
  rw [View.canon_unit_zero hz2]
  simp only [View.readAt_eq_ld, h2.read_unread, h3.read_unread, h6.read_unread, h7.read_unread, View.ld_unit_zero (S := S8192x128) hz2, View.ld_unit_zero (S := S1x128) hz2]

/-- Case C, the loss output block: the lane sum of the log-term accumulator as this point leaves it. -/
theorem lossOut_C (c : Dev nD) (i : grid0.Coords) (a2 : Memref sig .tc .vmem S8192x128 .f32) (h2 : a2.IsWhole) (a3 : Memref sig .tc .vmem S8192x128 .i32) (h3 : a3.IsWhole) (a4 : Memref sig .tc .vmem S1x1x1 .f32) (h4 : a4.IsWhole) (a5 : Memref sig .tc .vmem S1x1x1 .f32) (h5 : a5.IsWhole) (a6 : Memref sig .tc .vmem S1x128 .f32) (h6 : a6.IsWhole) (a7 : Memref sig .tc .vmem S1x128 .f32) (h7 : a7.IsWhole) (hc0 : ¬cond0_0 i) (hc1 : cond0_1 i)
    (x0 : Vec F S8192x128 .f32) (x1 : Vec F S8192x128 .i32) (xs0 : Vec F S1x128 .f32) (xs1 : Vec F S1x128 .f32) :
    out0_C_2 c i a2 h2 a3 h3 a4 h4 a5 h5 a6 h6 a7 h7 hc0 hc1 x0 x1 xs0 xs1 = k0_pay1 (k0_pay7 x0 x1 xs0) := by
  unfold out0_C_2
  rw [View.read_writes_eq_canon _ _ _ (cover0_C_2 c i a2 h2 a3 h3 a4 h4 a5 h5 a6 h6 a7 h7 hc0 hc1 x0 x1 xs0 xs1)]
  unfold kernelRun0_C
  dsimp only
  sl_unfold_words
  rw [View.canon_unit_zero hz3, View.readCov_unit_zero (S := S1x128) _ hz2]
  simp only [View.readAt_eq_ld, h2.read_unread, h3.read_unread, h6.read_unread, h7.read_unread, View.ld_unit_zero (S := S8192x128) hz2, View.ld_unit_zero (S := S1x128) hz2]

/-- Case C, the accuracy output block: the lane sum of the hit-count accumulator as this point leaves it. -/
theorem hitOut_C (c : Dev nD) (i : grid0.Coords) (a2 : Memref sig .tc .vmem S8192x128 .f32) (h2 : a2.IsWhole) (a3 : Memref sig .tc .vmem S8192x128 .i32) (h3 : a3.IsWhole) (a4 : Memref sig .tc .vmem S1x1x1 .f32) (h4 : a4.IsWhole) (a5 : Memref sig .tc .vmem S1x1x1 .f32) (h5 : a5.IsWhole) (a6 : Memref sig .tc .vmem S1x128 .f32) (h6 : a6.IsWhole) (a7 : Memref sig .tc .vmem S1x128 .f32) (h7 : a7.IsWhole) (hc0 : ¬cond0_0 i) (hc1 : cond0_1 i)
    (x0 : Vec F S8192x128 .f32) (x1 : Vec F S8192x128 .i32) (xs0 : Vec F S1x128 .f32) (xs1 : Vec F S1x128 .f32) :
    out0_C_3 c i a2 h2 a3 h3 a4 h4 a5 h5 a6 h6 a7 h7 hc0 hc1 x0 x1 xs0 xs1 = k0_pay2 (k0_pay8 x0 x1 xs1) := by
  unfold out0_C_3
  rw [View.read_writes_eq_canon _ _ _ (cover0_C_3 c i a2 h2 a3 h3 a4 h4 a5 h5 a6 h6 a7 h7 hc0 hc1 x0 x1 xs0 xs1)]
  unfold kernelRun0_C
  dsimp only
  sl_unfold_words
  rw [View.canon_unit_zero hz3, View.readCov_unit_zero (S := S1x128) _ hz2]
  simp only [View.readAt_eq_ld, h2.read_unread, h3.read_unread, h6.read_unread, h7.read_unread, View.ld_unit_zero (S := S8192x128) hz2, View.ld_unit_zero (S := S1x128) hz2]

/-! ## The first point of a run: the accumulators restart from the zero row -/

/-- Case A, the log-term accumulator: the zero row plus the block's column sums. -/
theorem logAcc_A (c : Dev nD) (i : grid0.Coords) (a2 : Memref sig .tc .vmem S8192x128 .f32) (h2 : a2.IsWhole) (a3 : Memref sig .tc .vmem S8192x128 .i32) (h3 : a3.IsWhole) (a4 : Memref sig .tc .vmem S1x1x1 .f32) (h4 : a4.IsWhole) (a5 : Memref sig .tc .vmem S1x1x1 .f32) (h5 : a5.IsWhole) (a6 : Memref sig .tc .vmem S1x128 .f32) (h6 : a6.IsWhole) (a7 : Memref sig .tc .vmem S1x128 .f32) (h7 : a7.IsWhole) (hc0 : cond0_0 i) (hc1 : ¬cond0_1 i)
    (x0 : Vec F S8192x128 .f32) (x1 : Vec F S8192x128 .i32) :
    sout0_A_0 c i a2 h2 a3 h3 a4 h4 a5 h5 a6 h6 a7 h7 hc0 hc1 x0 x1 = k0_pay7 x0 x1 (k0_pay3 (F := F)) := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S1x128) hz2, View.readCov_unit_zero (S := S1x128) _ hz2]
  simp only [View.readAt_eq_ld, h2.read_unread, h3.read_unread, h6.read_unread, h7.read_unread, View.ld_unit_zero (S := S8192x128) hz2, View.ld_unit_zero (S := S1x128) hz2]

/-- Case A, the hit-count accumulator: the zero row plus the block's column sums. -/
theorem hitAcc_A (c : Dev nD) (i : grid0.Coords) (a2 : Memref sig .tc .vmem S8192x128 .f32) (h2 : a2.IsWhole) (a3 : Memref sig .tc .vmem S8192x128 .i32) (h3 : a3.IsWhole) (a4 : Memref sig .tc .vmem S1x1x1 .f32) (h4 : a4.IsWhole) (a5 : Memref sig .tc .vmem S1x1x1 .f32) (h5 : a5.IsWhole) (a6 : Memref sig .tc .vmem S1x128 .f32) (h6 : a6.IsWhole) (a7 : Memref sig .tc .vmem S1x128 .f32) (h7 : a7.IsWhole) (hc0 : cond0_0 i) (hc1 : ¬cond0_1 i)
    (x0 : Vec F S8192x128 .f32) (x1 : Vec F S8192x128 .i32) :
    sout0_A_1 c i a2 h2 a3 h3 a4 h4 a5 h5 a6 h6 a7 h7 hc0 hc1 x0 x1 = k0_pay8 x0 x1 (k0_pay4 (F := F)) := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_cons_unit_zero (S := S1x128) hz2, View.readCov_unit_zero (S := S1x128) _ hz2]
  simp only [View.readAt_eq_ld, h2.read_unread, h3.read_unread, h6.read_unread, h7.read_unread, View.ld_unit_zero (S := S8192x128) hz2, View.ld_unit_zero (S := S1x128) hz2]

end Cert.KernelIdeal.Pieces

end
-- ==== Proof.Chain.lean ====
/-
  The two accumulators over a core's run of eight grid points, as folds.

  Point `n` of the grid belongs to the run that starts at `8·(n / 8)`. What the log-term accumulator holds after
  point `n` is the fold over the run's points up to `n`: the zero row plus the first block's column sums, then one
  more block's column sums per point; the same for the hit-count accumulator. At the run's last point each output
  block is the lane sum of its accumulator after that point. Stated for any float interpretation.
-/
import proofs.«174581_j77489799954598_2_alg».proof.Proof.Pieces

noncomputable section

open Idealize.ShloMosaic Idealize.ShloMosaic.TcCoe Idealize.SL.Sem

namespace Cert.KernelIdeal.Chain

open Cert.KernelIdeal Cert.KernelIdeal.Gen Cert.KernelIdeal.Pieces

variable {F : FTy → Type} [FloatOps F]
variable (m : (ℓ : Loc nD τ sig) → Buf (Elt F) ℓ)

/-- The log-term accumulator after point `n`. -/
def logAcc (c : Dev nD) (n : ℕ) (h : n < cfg0.N) : Vec F S1x128 .f32 := (outsAt0 m c n h).2.2.1
/-- The hit-count accumulator after point `n`. -/
def hitAcc (c : Dev nD) (n : ℕ) (h : n < cfg0.N) : Vec F S1x128 .f32 := (outsAt0 m c n h).2.2.2

/-- A run's first point: the zero row plus the block's column sums of weighted log terms. -/
def logStart (c : Dev nD) (n : ℕ) (h : n < cfg0.N) : Vec F S1x128 .f32 :=
  k0_pay7 (iblk m c 0 ⟨n, h⟩) (iblk m c 1 ⟨n, h⟩) (k0_pay3 (F := F))
/-- A later point: what the point before left plus the block's column sums of weighted log terms. -/
def logStep (c : Dev nD) (n : ℕ) (h : n < cfg0.N) (acc : Vec F S1x128 .f32) : Vec F S1x128 .f32 :=
  k0_pay7 (iblk m c 0 ⟨n, h⟩) (iblk m c 1 ⟨n, h⟩) acc
/-- A run's first point: the zero row plus the block's column sums of correct-rounding flags. -/
def hitStart (c : Dev nD) (n : ℕ) (h : n < cfg0.N) : Vec F S1x128 .f32 :=
  k0_pay8 (iblk m c 0 ⟨n, h⟩) (iblk m c 1 ⟨n, h⟩) (k0_pay4 (F := F))
/-- A later point: what the point before left plus the block's column sums of correct-rounding flags. -/
def hitStep (c : Dev nD) (n : ℕ) (h : n < cfg0.N) (acc : Vec F S1x128 .f32) : Vec F S1x128 .f32 :=
  k0_pay8 (iblk m c 0 ⟨n, h⟩) (iblk m c 1 ⟨n, h⟩) acc

/-- At a run's first point the log-term accumulator restarts. -/
theorem logAcc_restart (c : Dev nD) (n : ℕ) (h : n < cfg0.N) (h0 : n % 8 = 0) : logAcc m c n h = logStart m c n h := by
  have h1 : ¬n % 8 = 7 := by omega
  exact (congrArg (fun p => p.2.2.1) (outsAt0_A m c ⟨n, h⟩ h0 h1)).trans
    (logAcc_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) ((hcond0_0 ⟨n, h⟩).mpr h0) (fun hq => h1 ((hcond0_1 ⟨n, h⟩).mp hq)) (iblk m c 0 ⟨n, h⟩) (iblk m c 1 ⟨n, h⟩))

/-- At every other point it steps from what the point before left. -/
theorem logAcc_step (c : Dev nD) (n : ℕ) (h : n + 1 < cfg0.N) (h0 : ¬(n + 1) % 8 = 0) :
    logAcc m c (n + 1) h = logStep m c (n + 1) h (logAcc m c n (Nat.lt_of_succ_lt h)) := by
  by_cases h1 : (n + 1) % 8 = 7
  · exact (congrArg (fun p => p.2.2.1) (outsAt0_C m c ⟨n + 1, h⟩ h0 h1)).trans
      (logAcc_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hq => h0 ((hcond0_0 ⟨n + 1, h⟩).mp hq)) ((hcond0_1 ⟨n + 1, h⟩).mpr h1) (iblk m c 0 ⟨n + 1, h⟩) (iblk m c 1 ⟨n + 1, h⟩) (logAcc m c n (Nat.lt_of_succ_lt h)) (hitAcc m c n (Nat.lt_of_succ_lt h)))
  · exact (congrArg (fun p => p.2.2.1) (outsAt0_B m c ⟨n + 1, h⟩ h0 h1)).trans
      (logAcc_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hq => h0 ((hcond0_0 ⟨n + 1, h⟩).mp hq)) (fun hq => h1 ((hcond0_1 ⟨n + 1, h⟩).mp hq)) (iblk m c 0 ⟨n + 1, h⟩) (iblk m c 1 ⟨n + 1, h⟩) (logAcc m c n (Nat.lt_of_succ_lt h)) (hitAcc m c n (Nat.lt_of_succ_lt h)))

/-- At a run's first point the hit-count accumulator restarts. -/
theorem hitAcc_restart (c : Dev nD) (n : ℕ) (h : n < cfg0.N) (h0 : n % 8 = 0) : hitAcc m c n h = hitStart m c n h := by
  have h1 : ¬n % 8 = 7 := by omega
  exact (congrArg (fun p => p.2.2.2) (outsAt0_A m c ⟨n, h⟩ h0 h1)).trans
    (hitAcc_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) ((hcond0_0 ⟨n, h⟩).mpr h0) (fun hq => h1 ((hcond0_1 ⟨n, h⟩).mp hq)) (iblk m c 0 ⟨n, h⟩) (iblk m c 1 ⟨n, h⟩))

/-- At every other point it steps from what the point before left. -/
theorem hitAcc_step (c : Dev nD) (n : ℕ) (h : n + 1 < cfg0.N) (h0 : ¬(n + 1) % 8 = 0) :
    hitAcc m c (n + 1) h = hitStep m c (n + 1) h (hitAcc m c n (Nat.lt_of_succ_lt h)) := by
  by_cases h1 : (n + 1) % 8 = 7
  · exact (congrArg (fun p => p.2.2.2) (outsAt0_C m c ⟨n + 1, h⟩ h0 h1)).trans
      (hitAcc_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hq => h0 ((hcond0_0 ⟨n + 1, h⟩).mp hq)) ((hcond0_1 ⟨n + 1, h⟩).mpr h1) (iblk m c 0 ⟨n + 1, h⟩) (iblk m c 1 ⟨n + 1, h⟩) (logAcc m c n (Nat.lt_of_succ_lt h)) (hitAcc m c n (Nat.lt_of_succ_lt h)))
  · exact (congrArg (fun p => p.2.2.2) (outsAt0_B m c ⟨n + 1, h⟩ h0 h1)).trans
      (hitAcc_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hq => h0 ((hcond0_0 ⟨n + 1, h⟩).mp hq)) (fun hq => h1 ((hcond0_1 ⟨n + 1, h⟩).mp hq)) (iblk m c 0 ⟨n + 1, h⟩) (iblk m c 1 ⟨n + 1, h⟩) (logAcc m c n (Nat.lt_of_succ_lt h)) (hitAcc m c n (Nat.lt_of_succ_lt h)))

/-- So after point `n` the log-term accumulator is the fold over its run's points up to `n`. -/
theorem logAcc_eq_fold (c : Dev nD) (n : ℕ) (h : n < cfg0.N) (h' : 8 * (n / 8) + n % 8 < cfg0.N) :
    logAcc m c n h = Pipeline.accAt (logStart m c) (logStep m c) (8 * (n / 8)) (n % 8) h' :=
  Pipeline.eq_accAt_of_mod (logAcc m c) 8 (logStart m c) (logStep m c) (logAcc_restart m c) (logAcc_step m c)
    (by decide) n h h'

/-- And the hit-count accumulator likewise. -/
theorem hitAcc_eq_fold (c : Dev nD) (n : ℕ) (h : n < cfg0.N) (h' : 8 * (n / 8) + n % 8 < cfg0.N) :
    hitAcc m c n h = Pipeline.accAt (hitStart m c) (hitStep m c) (8 * (n / 8)) (n % 8) h' :=
  Pipeline.eq_accAt_of_mod (hitAcc m c) 8 (hitStart m c) (hitStep m c) (hitAcc_restart m c) (hitAcc_step m c)
    (by decide) n h h'

/-- At a run's last point the loss output block is the lane sum of the log-term accumulator after that point. -/
theorem lossOut_eq (c : Dev nD) (t : Fin cfg0.N) (h1 : t.val % 8 = 7) :
    (outsAt0 m c t.val t.isLt).1 = k0_pay1 (logAcc m c t.val t.isLt) := by
  have h0 : ¬t.val % 8 = 0 := by omega
  have hp : t.val - 1 < cfg0.N := Nat.lt_of_le_of_lt (Nat.sub_le _ _) t.isLt
  have e := outsAt0_C m c t h0 h1
  have e1 : (outsAt0 m c t.val t.isLt).1
      = out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hq => h0 ((hcond0_0 t).mp hq)) ((hcond0_1 t).mpr h1) (iblk m c 0 t) (iblk m c 1 t) (logAcc m c (t.val - 1) hp) (hitAcc m c (t.val - 1) hp) :=
    congrArg (fun p => p.1) e
  have e2 : logAcc m c t.val t.isLt
      = sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hq => h0 ((hcond0_0 t).mp hq)) ((hcond0_1 t).mpr h1) (iblk m c 0 t) (iblk m c 1 t) (logAcc m c (t.val - 1) hp) (hitAcc m c (t.val - 1) hp) :=
    congrArg (fun p => p.2.2.1) e
  exact e1.trans ((lossOut_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hq => h0 ((hcond0_0 t).mp hq)) ((hcond0_1 t).mpr h1) (iblk m c 0 t) (iblk m c 1 t) (logAcc m c (t.val - 1) hp) (hitAcc m c (t.val - 1) hp)).trans
    (congrArg k0_pay1 (e2.trans (logAcc_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hq => h0 ((hcond0_0 t).mp hq)) ((hcond0_1 t).mpr h1) (iblk m c 0 t) (iblk m c 1 t) (logAcc m c (t.val - 1) hp) (hitAcc m c (t.val - 1) hp))).symm))

/-- And the accuracy output block the lane sum of the hit-count accumulator after that point. -/
theorem hitOut_eq (c : Dev nD) (t : Fin cfg0.N) (h1 : t.val % 8 = 7) :
    (outsAt0 m c t.val t.isLt).2.1 = k0_pay2 (hitAcc m c t.val t.isLt) := by
  have h0 : ¬t.val % 8 = 0 := by omega
  have hp : t.val - 1 < cfg0.N := Nat.lt_of_le_of_lt (Nat.sub_le _ _) t.isLt
  have e := outsAt0_C m c t h0 h1
  have e1 : (outsAt0 m c t.val t.isLt).2.1
      = out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hq => h0 ((hcond0_0 t).mp hq)) ((hcond0_1 t).mpr h1) (iblk m c 0 t) (iblk m c 1 t) (logAcc m c (t.val - 1) hp) (hitAcc m c (t.val - 1) hp) :=
    congrArg (fun p => p.2.1) e
  have e2 : hitAcc m c t.val t.isLt
      = sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hq => h0 ((hcond0_0 t).mp hq)) ((hcond0_1 t).mpr h1) (iblk m c 0 t) (iblk m c 1 t) (logAcc m c (t.val - 1) hp) (hitAcc m c (t.val - 1) hp) :=
    congrArg (fun p => p.2.2.2) e
  exact e1.trans ((hitOut_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hq => h0 ((hcond0_0 t).mp hq)) ((hcond0_1 t).mpr h1) (iblk m c 0 t) (iblk m c 1 t) (logAcc m c (t.val - 1) hp) (hitAcc m c (t.val - 1) hp)).trans
    (congrArg k0_pay2 (e2.trans (hitAcc_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hq => h0 ((hcond0_0 t).mp hq)) ((hcond0_1 t).mpr h1) (iblk m c 0 t) (iblk m c 1 t) (logAcc m c (t.val - 1) hp) (hitAcc m c (t.val - 1) hp))).symm))

end Cert.KernelIdeal.Chain

end
-- ==== Proof.Blocks.lean ====
/-
  Where a grid point's blocks sit in the flat inputs.

  The host reshapes each flat input of 16 777 216 entries to 131 072 rows of 128 lanes: row `R`, lane `l` is entry
  `128·R + l`. Grid point `t` (core `t / 8`, step `t % 8`) is handed block `8·(t / 8) + t % 8 = t` of 8192 rows, so
  its row `r`, lane `l` is entry `128·(8192·t + r) + l` of the flat input. Stated over the extended reals, with the
  flat inputs extended past their extent by a value nothing reads, so that they are functions of a natural number.
-/
import proofs.«174581_j77489799954598_2_alg».proof.Proof.Gen.KernelIdeal.Frame.Runs
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-- The float input as a function of the position, `0` past its extent. -/
def flatX (c : Dev nD) (k : ℕ) : EReal :=
  if h : k < 16777216 then (m ((c : Thread nD τ).loc main_arg0) : S16777216.Idx → EReal) (ix1 ⟨k, h⟩) else 0

/-- The label input as a function of the position, the zero word past its extent. -/
def flatT (c : Dev nD) (k : ℕ) : BitVec 32 :=
  if h : k < 16777216 then (m ((c : Thread nD τ).loc main_arg1) : S16777216.Idx → BitVec 32) (ix1 ⟨k, h⟩) else 0#32

/-- The region finds the float input as 131 072 rows of 128 lanes. -/
theorem V_rowsX (c : Dev nD) : (V m c main_v0 : S131072x128.Idx → EReal)
    = shapeCast S131072x128 (m ((c : Thread nD τ).loc main_arg0) : S16777216.Idx → EReal) shapeCasts_S16777216_S131072x128 := by
  show StableHlo.after hostOps0 (fun b => m (c, b)) (Proc.devRef .tc main_v0) = _
  after_results
  rfl

/-- And the label input likewise. -/
theorem V_rowsT (c : Dev nD) : (V m c main_v1 : S131072x128.Idx → BitVec 32)
    = shapeCast S131072x128 (m ((c : Thread nD τ).loc main_arg1) : S16777216.Idx → BitVec 32) shapeCasts_S16777216_S131072x128 := by
  show StableHlo.after hostOps0 (fun b => m (c, b)) (Proc.devRef .tc main_v1) = _
  after_results
  rfl

/-- Both input windows are at block row `t`, block column 0, at grid point `t`. -/
theorem index_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- Row `r`, lane `l` of grid point `t`'s float block is entry `128·(8192·t + r) + l` of the flat input. -/
theorem xblk_apply (c : Dev nD) (t : Fin cfg0.N) (r : Fin 8192) (l : Fin 128) :
    (iblk m c 0 t : S8192x128.Idx → EReal) (ix2 r l) = flatX m c (128 * (8192 * t.val + r.val) + l.val) := by
  have ht : t.val < 16 := lt_of_lt_of_eq t.isLt (show cfg0.N = 16 from N_0)
  have hk : 128 * (8192 * t.val + r.val) + l.val < 16777216 := by have := r.isLt; have := l.isLt; omega
  obtain ⟨i0, i1, -, -⟩ := index_facts t
  unfold iblk flatX
  rw [dif_pos hk, View.read_apply]
  show (V m c main_v0 : S131072x128.Idx → EReal) (((cfg0.win 0).blk t).view.emb (ix2 r l)) = _
  rw [V_rowsX]
  refine shapeCast_apply _ _ _ _ ?_
  show (S16777216.rowMajor (ix1 ⟨128 * (8192 * t.val + r.val) + l.val, hk⟩)).val
    = (S131072x128.rowMajor (((cfg0.win 0).blk t).view.emb (ix2 r l))).val
  rw [Shape.rowMajor_val_one, Shape.rowMajor_val_two]
  show 128 * (8192 * t.val + r.val) + l.val
    = (win0_0.index t (0 : Fin 2) * 8192 + 1 * r.val) * 128 + (win0_0.index t (1 : Fin 2) * 128 + 1 * l.val)
  rw [i0, i1]; omega

/-- And of its label block, the same entry of the flat labels. -/
theorem tblk_apply (c : Dev nD) (t : Fin cfg0.N) (r : Fin 8192) (l : Fin 128) :
    (iblk m c 1 t : S8192x128.Idx → BitVec 32) (ix2 r l) = flatT m c (128 * (8192 * t.val + r.val) + l.val) := by
  have ht : t.val < 16 := lt_of_lt_of_eq t.isLt (show cfg0.N = 16 from N_0)
  have hk : 128 * (8192 * t.val + r.val) + l.val < 16777216 := by have := r.isLt; have := l.isLt; omega
  obtain ⟨-, -, i0, i1⟩ := index_facts t
  unfold iblk flatT
  rw [dif_pos hk, View.read_apply]
  show (V m c main_v1 : S131072x128.Idx → BitVec 32) (((cfg0.win 1).blk t).view.emb (ix2 r l)) = _
  rw [V_rowsT]
  refine shapeCast_apply _ _ _ _ ?_
  show (S16777216.rowMajor (ix1 ⟨128 * (8192 * t.val + r.val) + l.val, hk⟩)).val
    = (S131072x128.rowMajor (((cfg0.win 1).blk t).view.emb (ix2 r l))).val
  rw [Shape.rowMajor_val_one, Shape.rowMajor_val_two]
  show 128 * (8192 * t.val + r.val) + l.val
    = (win0_1.index t (0 : Fin 2) * 8192 + 1 * r.val) * 128 + (win0_1.index t (1 : Fin 2) * 128 + 1 * l.val)
  rw [i0, i1]; omega

end Cert.KernelIdeal.Blocks

end
-- ==== Proof.Terms.lean ====
/-
  One element's two terms over the extended reals, and the kernel's spelling of each against the reference's.

  The weighted log term of an input `x` with label `t` is `log x · w₁` when `t = 1` and `log (1 − x) · w₀`
  otherwise. The reference computes both products and selects; the kernel selects the logarithm's operand and the
  weight first and takes one logarithm. A selection commutes with any function applied to its branches, so the two
  agree whatever `x` is — also where the logarithm is infinite.

  The correct-rounding flag is 1 when `x` rounded to the nearest integer, ties to even, equals the label read as a
  signed integer, else 0. The reference converts the one-bit comparison to a float directly; the kernel widens it to
  32 bits and converts that as a signed integer. A bit is 0 or 1 either way.
-/
import Idealize.ShloMosaic.PureOps.Ideal
import Idealize.ShloMosaic.Lib.ValueIdx

noncomputable section

namespace Cert.Bce

open Idealize.ShloMosaic

/-- The weighted log term of one element, in the reference's arrangement: both branches, then the choice. -/
def lossTerm (x : EReal) (t : BitVec 32) : EReal :=
  Scalar.select (IntOp.cmpi .eq t 1#32)
    (Ideal.log x * Ideal.ofBits .f32 0x3FCCCCCD#32)
    (Ideal.log (Ideal.ofBits .f32 0x3F800000#32 - x) * Ideal.ofBits .f32 0x3ECCCCCD#32)

/-- The kernel's arrangement — choose the operand and the weight, then one logarithm — is the same term. -/
theorem log_select_mul_select (x : EReal) (t : BitVec 32) :
    Ideal.log (Scalar.select (IntOp.cmpi .eq t 1#32) x (Ideal.ofBits .f32 0x3F800000#32 - x))
        * Scalar.select (IntOp.cmpi .eq t 1#32) (Ideal.ofBits .f32 0x3FCCCCCD#32) (Ideal.ofBits .f32 0x3ECCCCCD#32)
      = lossTerm x t := by
  unfold lossTerm Scalar.select
  split <;> rfl

/-- The correct-rounding flag of one element, in the reference's arrangement: the comparison bit read unsigned. -/
def hitTerm (x : EReal) (t : BitVec 32) : EReal :=
  (((Ideal.cmp .oeq (Ideal.liftRound Ideal.roundHalfEven x) ((t.toInt : ℝ) : EReal)).toNat : ℝ) : EReal)

/-- A bit widened to 32 bits and read as a signed integer is the bit read unsigned. -/
theorem toInt_setWidth_bit (b : BitVec 1) : (((b.setWidth 32).toInt : ℝ) : EReal) = ((b.toNat : ℝ) : EReal) := by
  rcases BitVec.eq_zero_or_eq_one b with h | h <;> subst h <;> simp

/-- So the kernel's arrangement of the flag — widen, then convert as a signed integer — is the same term. -/
theorem sitofp_extui_cmp (x : EReal) (t : BitVec 32) :
    ((((Ideal.cmp .oeq (Ideal.liftRound Ideal.roundHalfEven x) ((t.toInt : ℝ) : EReal)).setWidth 32).toInt : ℝ) : EReal)
      = hitTerm x t :=
  toInt_setWidth_bit _

end Cert.Bce

end
-- ==== Proof.Sums.lean ====
/-
  The body's payloads and the two folds, read at an index over the extended reals.

  Adding a block into an accumulator adds, lane by lane, the sum over the block's 8192 rows of that lane's terms; the
  restart row is zero; the output block is the sum over the accumulator's 128 lanes. So after `j` steps of a run that
  starts at point `b`, lane `l` of an accumulator is zero plus the sum over points `b … b + j` of each point's column
  sum at lane `l`.
-/
import proofs.«174581_j77489799954598_2_alg».proof.Proof.Gen.KernelIdeal.Skeleton
import proofs.«174581_j77489799954598_2_alg».proof.Proof.Terms
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Sums

open Cert.KernelIdeal Cert.KernelIdeal.Gen Cert.Bce

/-! ## The block's two term arrays at an index -/

/-- The block's weighted log terms, as the body spells them, at an index. -/
theorem lossVec_apply (x0 : Vec Ideal S8192x128 .f32) (x1 : Vec Ideal S8192x128 .i32) (i : S8192x128.Idx) :
    mulf (log (select (cmpi .eq x1 (broadcast S8192x128 1#32)) x0
        (subf (broadcast S8192x128 (FloatOps.ofBits (F := Ideal) .f32 0x3F800000#32)) x0)))
      (select (cmpi .eq x1 (broadcast S8192x128 1#32))
        (broadcast S8192x128 (FloatOps.ofBits (F := Ideal) .f32 0x3FCCCCCD#32))
        (broadcast S8192x128 (FloatOps.ofBits (F := Ideal) .f32 0x3ECCCCCD#32))) i
      = lossTerm (x0 i) (x1 i) :=
  log_select_mul_select (x0 i) (x1 i)

/-- The block's correct-rounding flags, as the body spells them, at an index. -/
theorem hitVec_apply (x0 : Vec Ideal S8192x128 .f32) (x1 : Vec Ideal S8192x128 .i32) (i : S8192x128.Idx) :
    (sitofp (F := Ideal) .f32 (extui 32 (cmpf .oeq (roundeven x0) (sitofp (F := Ideal) .f32 x1)) natLt_1_32)) i
      = hitTerm (x0 i) (x1 i) :=
  sitofp_extui_cmp (x0 i) (x1 i)

/-- A column of a block: the index the column sum inserts row `r` at, for lane `l`, is `(r, l)`. -/
theorem lift_row (l : Fin 128) (r : Fin (S8192x128.size 0)) :
    reduces_S8192x128_S128.lift (ix1 l) r = ix2 r l :=
  funext fun a => Fin.ext (by match a with | ⟨0, _⟩ => rfl | ⟨1, _⟩ => rfl)

/-- A lane of the accumulator: the index the lane sum inserts lane `k` at is `(0, k)`. -/
theorem lift_lane (k : Fin (S1x128.size 1)) :
    reduces_S1x128_S1.lift (ix1 (0 : Fin 1)) k = ix2 (0 : Fin 1) k :=
  funext fun a => Fin.ext (by match a with | ⟨0, _⟩ => rfl | ⟨1, _⟩ => rfl)

/-! ## The payloads at an index -/

/-- Adding a block into the log-term accumulator: lane `l` gains the block's column sum of weighted log terms. -/
theorem addLoss_apply (x0 : Vec Ideal S8192x128 .f32) (x1 : Vec Ideal S8192x128 .i32) (acc : Vec Ideal S1x128 .f32)
    (l : Fin 128) :
    k0_pay7 (F := Ideal) x0 x1 acc (ix2 (0 : Fin 1) l)
      = acc (ix2 (0 : Fin 1) l) + ∑ r : Fin 8192, lossTerm (x0 (ix2 r l)) (x1 (ix2 r l)) := by
  unfold k0_pay7 k0_pay5 k0_pay6
  simp only [shapeCast_self]
  refine (addf_apply _ _ _).trans ?_
  refine congrArg (acc (ix2 (0 : Fin 1) l) + ·) ?_
  refine (shapeCast_a_1a_apply _ _ (0 : Fin 1) l).trans ?_
  refine (Ideal.multiReduction_add_single _ _ _ _ _ (ix1 l)).trans ?_
  refine Finset.sum_congr rfl fun r _ => ?_
  exact (lossVec_apply x0 x1 _).trans (congrArg (fun i => lossTerm (x0 i) (x1 i)) (lift_row l r))

/-- Adding a block into the hit-count accumulator: lane `l` gains the block's column sum of flags. -/
theorem addHit_apply (x0 : Vec Ideal S8192x128 .f32) (x1 : Vec Ideal S8192x128 .i32) (acc : Vec Ideal S1x128 .f32)
    (l : Fin 128) :
    k0_pay8 (F := Ideal) x0 x1 acc (ix2 (0 : Fin 1) l)
      = acc (ix2 (0 : Fin 1) l) + ∑ r : Fin 8192, hitTerm (x0 (ix2 r l)) (x1 (ix2 r l)) := by
  unfold k0_pay8 k0_pay5 k0_pay6
  simp only [shapeCast_self]
  refine (addf_apply _ _ _).trans ?_
  refine congrArg (acc (ix2 (0 : Fin 1) l) + ·) ?_
  refine (shapeCast_a_1a_apply _ _ (0 : Fin 1) l).trans ?_
  refine (Ideal.multiReduction_add_single _ _ _ _ _ (ix1 l)).trans ?_
  refine Finset.sum_congr rfl fun r _ => ?_
  exact (hitVec_apply x0 x1 _).trans (congrArg (fun i => hitTerm (x0 i) (x1 i)) (lift_row l r))

/-- The restart row of the log-term accumulator is zero. -/
theorem zeroLoss_apply (i : S1x128.Idx) : k0_pay3 (F := Ideal) i = 0 := by
  unfold k0_pay3
  simp only [shapeCast_self]
  exact Ideal.ofBits_zero_f32

/-- The restart row of the hit-count accumulator is zero. -/
theorem zeroHit_apply (i : S1x128.Idx) : k0_pay4 (F := Ideal) i = 0 := by
  unfold k0_pay4
  simp only [shapeCast_self]
  exact Ideal.ofBits_zero_f32

/-- The loss output block holds the sum over the 128 lanes of the accumulator it is given. -/
theorem laneSumLoss_apply (v : Vec Ideal S1x128 .f32) :
    k0_pay1 (F := Ideal) v (ix3 (0 : Fin 1) (0 : Fin 1) (0 : Fin 1)) = ∑ l : Fin 128, v (ix2 (0 : Fin 1) l) := by
  unfold k0_pay1
  refine (shapeCast_ab_1ab_apply _ _ (0 : Fin 1) (0 : Fin 1) (0 : Fin 1)).trans ?_
  refine (shapeCast_a_1a_apply _ _ (0 : Fin 1) (0 : Fin 1)).trans ?_
  refine (Ideal.multiReduction_add_single _ _ _ _ _ (ix1 (0 : Fin 1))).trans ?_
  exact Finset.sum_congr rfl fun k _ => congrArg v (lift_lane k)

/-- The accuracy output block likewise. -/
theorem laneSumHit_apply (v : Vec Ideal S1x128 .f32) :
    k0_pay2 (F := Ideal) v (ix3 (0 : Fin 1) (0 : Fin 1) (0 : Fin 1)) = ∑ l : Fin 128, v (ix2 (0 : Fin 1) l) := by
  unfold k0_pay2
  refine (shapeCast_ab_1ab_apply _ _ (0 : Fin 1) (0 : Fin 1) (0 : Fin 1)).trans ?_
  refine (shapeCast_a_1a_apply _ _ (0 : Fin 1) (0 : Fin 1)).trans ?_
  refine (Ideal.multiReduction_add_single _ _ _ _ _ (ix1 (0 : Fin 1))).trans ?_
  exact Finset.sum_congr rfl fun k _ => congrArg v (lift_lane k)

/-! ## A fold of additions, at a lane -/

/-- A fold that starts, at point `b`, from `0 + M b` at each lane and at every later point adds that point's `M` to
    what the point before left, holds after `j` steps `0` plus the sum of `M` over the points `b … b + j`. -/
theorem fold_add_lane {N : ℕ} (a : (n : ℕ) → n < N → Vec Ideal S1x128 .f32)
    (g : (n : ℕ) → n < N → Vec Ideal S1x128 .f32 → Vec Ideal S1x128 .f32) (M : ℕ → Fin 128 → EReal) (b : ℕ)
    (ha : ∀ (h : b < N) (l : Fin 128), a b h (ix2 (0 : Fin 1) l) = 0 + M b l)
    (hg : ∀ (n : ℕ) (h : n < N) (acc : Vec Ideal S1x128 .f32) (l : Fin 128),
      g n h acc (ix2 (0 : Fin 1) l) = acc (ix2 (0 : Fin 1) l) + M n l) :
    ∀ (j : ℕ) (h : b + j < N) (l : Fin 128),
      Pipeline.accAt a g b j h (ix2 (0 : Fin 1) l) = 0 + ∑ s ∈ Finset.range (j + 1), M (b + s) l
  | 0, h, l => by rw [Pipeline.accAt_zero, Finset.sum_range_one, ha]; rfl
  | j + 1, h, l => by
    rw [Pipeline.accAt_succ, hg, fold_add_lane a g M b ha hg j (Nat.lt_of_succ_lt h) l,
      Finset.sum_range_succ _ (j + 1), add_assoc]

end Cert.KernelIdeal.Sums

end
-- ==== Proof.Lanes.lean ====
/-
  One lane of each accumulator after a core's run of eight grid points, in terms of the flat inputs.

  Position `k` of the flat inputs carries a weighted log term and a correct-rounding flag. Grid point `n`'s block
  holds, at row `r` and lane `l`, position `128·(8192·n + r) + l`; its column sum at lane `l` runs over the 8192
  rows. After the last point of a run, lane `l` of an accumulator is zero plus the eight points' column sums.
-/
import proofs.«174581_j77489799954598_2_alg».proof.Proof.Chain
import proofs.«174581_j77489799954598_2_alg».proof.Proof.Blocks
import proofs.«174581_j77489799954598_2_alg».proof.Proof.Sums

noncomputable section

open Idealize.ShloMosaic Idealize.ShloMosaic.TcCoe Idealize.SL.Sem Idealize.ShloMosaic.ValueIdx

namespace Cert.KernelIdeal.Lanes

open Cert.KernelIdeal Cert.KernelIdeal.Gen Cert.KernelIdeal.Chain Cert.KernelIdeal.Blocks Cert.KernelIdeal.Sums Cert.Bce

variable (m : (ℓ : Loc nD τ sig) → Buf (Elt Ideal) ℓ)

/-! ## The weighted log terms -/

/-- The weighted log term of position `k` of the flat inputs. -/
def lossAt (c : Dev nD) (k : ℕ) : EReal := lossTerm (flatX m c k) (flatT m c k)

/-- Grid point `n`'s column sum at lane `l`: over its 8192 rows. -/
def colLoss (c : Dev nD) (n : ℕ) (l : Fin 128) : EReal :=
  ∑ r : Fin 8192, lossAt m c (128 * (8192 * n + r.val) + l.val)

/-- A block's column sum of terms is the column sum over the flat inputs. -/
theorem colLoss_eq (c : Dev nD) (n : ℕ) (h : n < cfg0.N) (l : Fin 128) :
    ∑ r : Fin 8192, lossTerm ((iblk m c 0 ⟨n, h⟩ : S8192x128.Idx → EReal) (ix2 r l))
        ((iblk m c 1 ⟨n, h⟩ : S8192x128.Idx → BitVec 32) (ix2 r l)) = colLoss m c n l :=
  Finset.sum_congr rfl fun r _ => by rw [xblk_apply, tblk_apply]; rfl

/-- A run's first point leaves, at lane `l`, zero plus that point's column sum. -/
theorem logStart_lane (c : Dev nD) (n : ℕ) (h : n < cfg0.N) (l : Fin 128) :
    logStart m c n h (ix2 (0 : Fin 1) l) = 0 + colLoss m c n l := by
  unfold logStart
  refine (addLoss_apply (iblk m c 0 ⟨n, h⟩) (iblk m c 1 ⟨n, h⟩) (k0_pay3 (F := Ideal)) l).trans ?_
  rw [zeroLoss_apply]
  exact congrArg (0 + ·) (colLoss_eq m c n h l)

/-- A later point adds, at lane `l`, its column sum to what the point before left. -/
theorem logStep_lane (c : Dev nD) (n : ℕ) (h : n < cfg0.N) (acc : Vec Ideal S1x128 .f32) (l : Fin 128) :
    logStep m c n h acc (ix2 (0 : Fin 1) l) = acc (ix2 (0 : Fin 1) l) + colLoss m c n l := by
  unfold logStep
  exact (addLoss_apply (iblk m c 0 ⟨n, h⟩) (iblk m c 1 ⟨n, h⟩) acc l).trans
    (congrArg (acc (ix2 (0 : Fin 1) l) + ·) (colLoss_eq m c n h l))

/-- After the last point of a run, lane `l` of the accumulator holds zero plus the eight points' column sums. -/
theorem logAcc_lane (c : Dev nD) (t : Fin cfg0.N) (h7 : t.val % 8 = 7) (l : Fin 128) :
    logAcc m c t.val t.isLt (ix2 (0 : Fin 1) l) = 0 + ∑ s ∈ Finset.range 8, colLoss m c (8 * (t.val / 8) + s) l := by
  have h' : 8 * (t.val / 8) + t.val % 8 < cfg0.N := by rw [Nat.div_add_mod]; exact t.isLt
  refine (congrFun (logAcc_eq_fold m c t.val t.isLt h') (ix2 (0 : Fin 1) l)).trans ?_
  refine (fold_add_lane (logStart m c) (logStep m c) (colLoss m c) (8 * (t.val / 8))
    (fun h l => logStart_lane m c _ h l) (fun n h acc l => logStep_lane m c n h acc l) (t.val % 8) h' l).trans ?_
  rw [h7]

/-! ## The correct-rounding flags -/

/-- The correct-rounding flag of position `k` of the flat inputs. -/
def hitAt (c : Dev nD) (k : ℕ) : EReal := hitTerm (flatX m c k) (flatT m c k)

/-- Grid point `n`'s column sum at lane `l`: over its 8192 rows. -/
def colHit (c : Dev nD) (n : ℕ) (l : Fin 128) : EReal :=
  ∑ r : Fin 8192, hitAt m c (128 * (8192 * n + r.val) + l.val)

/-- A block's column sum of terms is the column sum over the flat inputs. -/
theorem colHit_eq (c : Dev nD) (n : ℕ) (h : n < cfg0.N) (l : Fin 128) :
    ∑ r : Fin 8192, hitTerm ((iblk m c 0 ⟨n, h⟩ : S8192x128.Idx → EReal) (ix2 r l))
        ((iblk m c 1 ⟨n, h⟩ : S8192x128.Idx → BitVec 32) (ix2 r l)) = colHit m c n l :=
  Finset.sum_congr rfl fun r _ => by rw [xblk_apply, tblk_apply]; rfl

/-- A run's first point leaves, at lane `l`, zero plus that point's column sum. -/
theorem hitStart_lane (c : Dev nD) (n : ℕ) (h : n < cfg0.N) (l : Fin 128) :
    hitStart m c n h (ix2 (0 : Fin 1) l) = 0 + colHit m c n l := by
  unfold hitStart
  refine (addHit_apply (iblk m c 0 ⟨n, h⟩) (iblk m c 1 ⟨n, h⟩) (k0_pay4 (F := Ideal)) l).trans ?_
  rw [zeroHit_apply]
  exact congrArg (0 + ·) (colHit_eq m c n h l)

/-- A later point adds, at lane `l`, its column sum to what the point before left. -/
theorem hitStep_lane (c : Dev nD) (n : ℕ) (h : n < cfg0.N) (acc : Vec Ideal S1x128 .f32) (l : Fin 128) :
    hitStep m c n h acc (ix2 (0 : Fin 1) l) = acc (ix2 (0 : Fin 1) l) + colHit m c n l := by
  unfold hitStep
  exact (addHit_apply (iblk m c 0 ⟨n, h⟩) (iblk m c 1 ⟨n, h⟩) acc l).trans
    (congrArg (acc (ix2 (0 : Fin 1) l) + ·) (colHit_eq m c n h l))

/-- After the last point of a run, lane `l` of the accumulator holds zero plus the eight points' column sums. -/
theorem hitAcc_lane (c : Dev nD) (t : Fin cfg0.N) (h7 : t.val % 8 = 7) (l : Fin 128) :
    hitAcc m c t.val t.isLt (ix2 (0 : Fin 1) l) = 0 + ∑ s ∈ Finset.range 8, colHit m c (8 * (t.val / 8) + s) l := by
  have h' : 8 * (t.val / 8) + t.val % 8 < cfg0.N := by rw [Nat.div_add_mod]; exact t.isLt
  refine (congrFun (hitAcc_eq_fold m c t.val t.isLt h') (ix2 (0 : Fin 1) l)).trans ?_
  refine (fold_add_lane (hitStart m c) (hitStep m c) (colHit m c) (8 * (t.val / 8))
    (fun h l => hitStart_lane m c _ h l) (fun n h acc l => hitStep_lane m c n h acc l) (t.val % 8) h' l).trans ?_
  rw [h7]

end Cert.KernelIdeal.Lanes

end
-- ==== Proof.OutIndex.lean ====
/-
  Where the two output windows sit: at grid point `t` each is at block `t / 8` along the core axis and block 0 along
  the two unit axes, so a core's eight points all address the core's own entry.
-/
import proofs.«174581_j77489799954598_2_alg».proof.Proof.Gen.KernelIdeal.Frame.Runs

noncomputable section

open Idealize.ShloMosaic Idealize.ShloMosaic.TcCoe Idealize.SL.Sem

namespace Cert.KernelIdeal.OutIndex

open Cert.KernelIdeal Cert.KernelIdeal.Gen

/-- Both output windows are at block `t / 8` along the core axis, block 0 along the two unit axes, at grid point `t`. -/
theorem out_index_facts : ∀ t : Fin cfg0.N,
    (win0_2.index t (0 : Fin 3) = t.val / 8 ∧ win0_2.index t (1 : Fin 3) = 0 ∧ win0_2.index t (2 : Fin 3) = 0)
    ∧ (win0_3.index t (0 : Fin 3) = t.val / 8 ∧ win0_3.index t (1 : Fin 3) = 0 ∧ win0_3.index t (2 : Fin 3) = 0) :=
  (by decide +kernel : ∀ t : Fin grid0.N,
    (win0_2.index t (0 : Fin 3) = t.val / 8 ∧ win0_2.index t (1 : Fin 3) = 0 ∧ win0_2.index t (2 : Fin 3) = 0)
    ∧ (win0_3.index t (0 : Fin 3) = t.val / 8 ∧ win0_3.index t (1 : Fin 3) = 0 ∧ win0_3.index t (2 : Fin 3) = 0))

end Cert.KernelIdeal.OutIndex

end
-- ==== Proof.LossArray.lean ====
/-
  The loss output array after the region, as one function of the flat inputs.

  The array has one entry per core. Core `q`'s entry is written back once, after the last point `8q + 7` of the
  core's run, and holds the sum over the 128 lanes of the log-term accumulator after that point: zero plus the column
  sums of the core's eight points. The two cores' blocks are the whole array.
-/
import proofs.«174581_j77489799954598_2_alg».proof.Proof.Lanes
import proofs.«174581_j77489799954598_2_alg».proof.Proof.OutIndex

noncomputable section

open Idealize.ShloMosaic Idealize.ShloMosaic.TcCoe Idealize.SL.Sem Idealize.ShloMosaic.ValueIdx

namespace Cert.KernelIdeal.LossArray

open Cert.KernelIdeal Cert.KernelIdeal.Gen Cert.KernelIdeal.Chain Cert.KernelIdeal.Sums Cert.KernelIdeal.Lanes Cert.KernelIdeal.OutIndex

variable (m : (ℓ : Loc nD τ sig) → Buf (Elt Ideal) ℓ)

/-! ## The loss output array -/

/-- The loss output array as one function: core `q`'s entry is the sum over the 128 lanes of zero plus the
    column sums of the core's eight points. -/
def lossArr (c : Dev nD) : S2x1x1.Idx → EReal := fun i =>
  ∑ l : Fin 128, (0 + ∑ s ∈ Finset.range 8, colLoss m c (8 * (i 0).val + s) l)

/-- Its entry at the index whose core coordinate is `q`. -/
theorem lossArr_apply (c : Dev nD) (i : S2x1x1.Idx) (q : ℕ) (hq : (i 0).val = q) :
    lossArr m c i = ∑ l : Fin 128, (0 + ∑ s ∈ Finset.range 8, colLoss m c (8 * q + s) l) := by
  unfold lossArr; rw [hq]

/-- Reading any function of the loss output array's index through point `t`'s block: the block's entry `j` is
    the function at the array index that `j` sits at; the element type is the array's own. -/
theorem read_lossBlk (G : S2x1x1.Idx → EReal) (t : Fin cfg0.N) (j : S1x1x1.Idx) :
    ((cfg0.win 2).blk t).view.read (Elt Ideal) G j = G (((cfg0.win 2).blk t).view.emb j) := rfl

/-- What a run's last point writes back is its block of that function. -/
theorem lossFlushed_eq (c : Dev nD) (t : Fin cfg0.N) (hf : (cfg0.win 2).flush t = true) :
    (dats m 0 c).flushed 2 t = ((cfg0.win 2).blk t).view.read (Elt Ideal) (lossArr m c) := by
  have h7 : t.val % 8 = 7 := (flush0_2 t).mp hf
  obtain ⟨i2, i3⟩ := out_index_facts t
  show (cfg0.win 2).cut (grid0.coords t) ((dats m 0 c).after 2 t) = _
  rw [after0_2, lossOut_eq m c t h7]
  funext j
  refine Eq.trans ?_ (read_lossBlk (lossArr m c) t j).symm
  have hj : j = (ix3 (0 : Fin 1) (0 : Fin 1) (0 : Fin 1) : S1x1x1.Idx) := funext fun a => by
    match a with
    | ⟨0, _⟩ => exact Subsingleton.elim (α := Fin 1) _ _
    | ⟨1, _⟩ => exact Subsingleton.elim (α := Fin 1) _ _
    | ⟨2, _⟩ => exact Subsingleton.elim (α := Fin 1) _ _
  subst hj
  have he : ((((cfg0.win 2).blk t).view.emb (ix3 (0 : Fin 1) (0 : Fin 1) (0 : Fin 1))) 0).val = t.val / 8 := by
    show win0_2.index t (0 : Fin 3) * 1 + 1 * 0 = t.val / 8
    rw [i2.1]; omega
  refine Eq.trans ?_ (lossArr_apply m c _ (t.val / 8) he).symm
  refine (laneSumLoss_apply (logAcc m c t.val t.isLt)).trans ?_
  exact Finset.sum_congr rfl fun l _ => logAcc_lane m c t h7 l

/-- An index of the loss output array is in point `t`'s block iff each coordinate is in the block's range. -/
theorem mem_lossBlk (t : Fin cfg0.N) (i : S2x1x1.Idx) :
    i ∈ ((cfg0.win 2).blk t).view.set ↔ ∀ a : Fin 3, win0_2.index t a * S1x1x1.size a ≤ (i a).val
      ∧ (i a).val < win0_2.index t a * S1x1x1.size a + S1x1x1.size a := by
  show i ∈ ((View.whole main_v2_0).slice (win0_2.rect t)).set ↔ _
  rw [View.set_slice_whole, Rect.mem_set_unit]
  exact Iff.rfl

/-- Core `q`'s entry is written back at the last point `8q + 7` of the core's run. -/
theorem lossCover (i : S2x1x1.Idx) :
    ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 1 := (i 2).isLt
  have hN : cfg0.N = 16 := N_0
  have ht : 8 * (i 0).val + 7 < cfg0.N := by rw [hN]; omega
  obtain ⟨i2, i3⟩ := out_index_facts ⟨8 * (i 0).val + 7, ht⟩
  have hq : (8 * (i 0).val + 7) / 8 = (i 0).val := by omega
  refine ⟨⟨8 * (i 0).val + 7, ht⟩, (flush0_2 _).mpr (by show (8 * (i 0).val + 7) % 8 = 7; omega), ?_⟩
  rw [mem_lossBlk]
  intro a
  match a with
  | ⟨0, _⟩ =>
    show win0_2.index ⟨8 * (i 0).val + 7, ht⟩ (0 : Fin 3) * 1 ≤ (i 0).val
      ∧ (i 0).val < win0_2.index ⟨8 * (i 0).val + 7, ht⟩ (0 : Fin 3) * 1 + 1
    rw [i2.1]; show (8 * (i 0).val + 7) / 8 * 1 ≤ (i 0).val ∧ (i 0).val < (8 * (i 0).val + 7) / 8 * 1 + 1
    rw [hq]; omega
  | ⟨1, _⟩ =>
    show win0_2.index ⟨8 * (i 0).val + 7, ht⟩ (1 : Fin 3) * 1 ≤ (i 1).val
      ∧ (i 1).val < win0_2.index ⟨8 * (i 0).val + 7, ht⟩ (1 : Fin 3) * 1 + 1
    rw [i2.2.1]; omega
  | ⟨2, _⟩ =>
    show win0_2.index ⟨8 * (i 0).val + 7, ht⟩ (2 : Fin 3) * 1 ≤ (i 2).val
      ∧ (i 2).val < win0_2.index ⟨8 * (i 0).val + 7, ht⟩ (2 : Fin 3) * 1 + 1
    rw [i2.2.2]; omega

/-- So the loss output array ends holding that function. -/
theorem lossFinal (c : Dev nD) : (dats m 0 c).arrAt 2 cfg0.N = lossArr m c :=
  (dats m 0 c).arrAt_eq_of_cover 2 (lossArr m c) (lossFlushed_eq m c) lossCover

end Cert.KernelIdeal.LossArray

end
-- ==== Proof.HitArray.lean ====
/-
  The accuracy output array after the region, as one function of the flat inputs.

  The array has one entry per core. Core `q`'s entry is written back once, after the last point `8q + 7` of the
  core's run, and holds the sum over the 128 lanes of the hit-count accumulator after that point: zero plus the
  column sums of the core's eight points. The two cores' blocks are the whole array.
-/
import proofs.«174581_j77489799954598_2_alg».proof.Proof.Lanes
import proofs.«174581_j77489799954598_2_alg».proof.Proof.OutIndex

noncomputable section

open Idealize.ShloMosaic Idealize.ShloMosaic.TcCoe Idealize.SL.Sem Idealize.ShloMosaic.ValueIdx

namespace Cert.KernelIdeal.HitArray

open Cert.KernelIdeal Cert.KernelIdeal.Gen Cert.KernelIdeal.Chain Cert.KernelIdeal.Sums Cert.KernelIdeal.Lanes Cert.KernelIdeal.OutIndex

variable (m : (ℓ : Loc nD τ sig) → Buf (Elt Ideal) ℓ)

/-! ## The accuracy output array -/

/-- The accuracy output array as one function: core `q`'s entry is the sum over the 128 lanes of zero plus the
    column sums of the core's eight points. -/
def hitArr (c : Dev nD) : S2x1x1.Idx → EReal := fun i =>
  ∑ l : Fin 128, (0 + ∑ s ∈ Finset.range 8, colHit m c (8 * (i 0).val + s) l)

/-- Its entry at the index whose core coordinate is `q`. -/
theorem hitArr_apply (c : Dev nD) (i : S2x1x1.Idx) (q : ℕ) (hq : (i 0).val = q) :
    hitArr m c i = ∑ l : Fin 128, (0 + ∑ s ∈ Finset.range 8, colHit m c (8 * q + s) l) := by
  unfold hitArr; rw [hq]

/-- Reading any function of the accuracy output array's index through point `t`'s block: the block's entry `j` is
    the function at the array index that `j` sits at; the element type is the array's own. -/
theorem read_hitBlk (G : S2x1x1.Idx → EReal) (t : Fin cfg0.N) (j : S1x1x1.Idx) :
    ((cfg0.win 3).blk t).view.read (Elt Ideal) G j = G (((cfg0.win 3).blk t).view.emb j) := rfl

/-- What a run's last point writes back is its block of that function. -/
theorem hitFlushed_eq (c : Dev nD) (t : Fin cfg0.N) (hf : (cfg0.win 3).flush t = true) :
    (dats m 0 c).flushed 3 t = ((cfg0.win 3).blk t).view.read (Elt Ideal) (hitArr m c) := by
  have h7 : t.val % 8 = 7 := (flush0_3 t).mp hf
  obtain ⟨i2, i3⟩ := out_index_facts t
  show (cfg0.win 3).cut (grid0.coords t) ((dats m 0 c).after 3 t) = _
  rw [after0_3, hitOut_eq m c t h7]
  funext j
  refine Eq.trans ?_ (read_hitBlk (hitArr m c) t j).symm
  have hj : j = (ix3 (0 : Fin 1) (0 : Fin 1) (0 : Fin 1) : S1x1x1.Idx) := funext fun a => by
    match a with
    | ⟨0, _⟩ => exact Subsingleton.elim (α := Fin 1) _ _
    | ⟨1, _⟩ => exact Subsingleton.elim (α := Fin 1) _ _
    | ⟨2, _⟩ => exact Subsingleton.elim (α := Fin 1) _ _
  subst hj
  have he : ((((cfg0.win 3).blk t).view.emb (ix3 (0 : Fin 1) (0 : Fin 1) (0 : Fin 1))) 0).val = t.val / 8 := by
    show win0_3.index t (0 : Fin 3) * 1 + 1 * 0 = t.val / 8
    rw [i3.1]; omega
  refine Eq.trans ?_ (hitArr_apply m c _ (t.val / 8) he).symm
  refine (laneSumHit_apply (hitAcc m c t.val t.isLt)).trans ?_
  exact Finset.sum_congr rfl fun l _ => hitAcc_lane m c t h7 l

/-- An index of the accuracy output array is in point `t`'s block iff each coordinate is in the block's range. -/
theorem mem_hitBlk (t : Fin cfg0.N) (i : S2x1x1.Idx) :
    i ∈ ((cfg0.win 3).blk t).view.set ↔ ∀ a : Fin 3, win0_3.index t a * S1x1x1.size a ≤ (i a).val
      ∧ (i a).val < win0_3.index t a * S1x1x1.size a + S1x1x1.size a := by
  show i ∈ ((View.whole main_v2_1).slice (win0_3.rect t)).set ↔ _
  rw [View.set_slice_whole, Rect.mem_set_unit]
  exact Iff.rfl

/-- Core `q`'s entry is written back at the last point `8q + 7` of the core's run. -/
theorem hitCover (i : S2x1x1.Idx) :
    ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 1 := (i 2).isLt
  have hN : cfg0.N = 16 := N_0
  have ht : 8 * (i 0).val + 7 < cfg0.N := by rw [hN]; omega
  obtain ⟨i2, i3⟩ := out_index_facts ⟨8 * (i 0).val + 7, ht⟩
  have hq : (8 * (i 0).val + 7) / 8 = (i 0).val := by omega
  refine ⟨⟨8 * (i 0).val + 7, ht⟩, (flush0_3 _).mpr (by show (8 * (i 0).val + 7) % 8 = 7; omega), ?_⟩
  rw [mem_hitBlk]
  intro a
  match a with
  | ⟨0, _⟩ =>
    show win0_3.index ⟨8 * (i 0).val + 7, ht⟩ (0 : Fin 3) * 1 ≤ (i 0).val
      ∧ (i 0).val < win0_3.index ⟨8 * (i 0).val + 7, ht⟩ (0 : Fin 3) * 1 + 1
    rw [i3.1]; show (8 * (i 0).val + 7) / 8 * 1 ≤ (i 0).val ∧ (i 0).val < (8 * (i 0).val + 7) / 8 * 1 + 1
    rw [hq]; omega
  | ⟨1, _⟩ =>
    show win0_3.index ⟨8 * (i 0).val + 7, ht⟩ (1 : Fin 3) * 1 ≤ (i 1).val
      ∧ (i 1).val < win0_3.index ⟨8 * (i 0).val + 7, ht⟩ (1 : Fin 3) * 1 + 1
    rw [i3.2.1]; omega
  | ⟨2, _⟩ =>
    show win0_3.index ⟨8 * (i 0).val + 7, ht⟩ (2 : Fin 3) * 1 ≤ (i 2).val
      ∧ (i 2).val < win0_3.index ⟨8 * (i 0).val + 7, ht⟩ (2 : Fin 3) * 1 + 1
    rw [i3.2.2]; omega

/-- So the accuracy output array ends holding that function. -/
theorem hitFinal (c : Dev nD) : (dats m 0 c).arrAt 3 cfg0.N = hitArr m c :=
  (dats m 0 c).arrAt_eq_of_cover 3 (hitArr m c) (hitFlushed_eq m c) hitCover

end Cert.KernelIdeal.HitArray

end
-- ==== Proof.Outcome.lean ====
/-
  The kernel's run with its two results named.

  After the region the host adds each output array's two entries to zero; the loss is that sum negated and divided by
  the element count, the accuracy the other sum divided by it. The two results are therefore these closing lines
  applied to the two output arrays, and the argument arrays end as they were launched.
-/
import proofs.«174581_j77489799954598_2_alg».proof.Proof.LossArray
import proofs.«174581_j77489799954598_2_alg».proof.Proof.HitArray

noncomputable section

open Idealize.ShloMosaic Idealize.ShloMosaic.TcCoe Idealize.SL.Sem

namespace Cert.KernelIdeal.Outcome

open Cert.KernelIdeal Cert.KernelIdeal.Gen Cert.KernelIdeal.LossArray Cert.KernelIdeal.HitArray

variable (m : (ℓ : Loc nD τ sig) → Buf (Elt Ideal) ℓ) (ρ : Dev nD → PrngReg)

/-- The host's closing lines for the loss: add the per-core entries to zero, negate, divide by the element count. -/
def lossTail (A : S2x1x1.Idx → EReal) : S_.Idx → EReal :=
  Host.divf (F := Ideal)
    (Host.negf (F := Ideal)
      (Host.reduceAdd (F := Ideal) A (constant (F := Ideal) S_ .f32 0x00000000#32) reducesTo_S2x1x1_S_d0_1_2 h_S_))
    (constant (F := Ideal) S_ .f32 0x4B800000#32)

/-- The host's closing lines for the accuracy: add the per-core entries to zero, divide by the element count. -/
def accTail (A : S2x1x1.Idx → EReal) : S_.Idx → EReal :=
  Host.divf (F := Ideal)
    (Host.reduceAdd (F := Ideal) A (constant (F := Ideal) S_ .f32 0x00000000#32) reducesTo_S2x1x1_S_d0_1_2 h_S_)
    (constant (F := Ideal) S_ .f32 0x4B800000#32)

/-- The loss result after the host's last lines: the closing lines applied to the loss output array. -/
theorem loss_result (c : Dev nD) :
    Pipeline.afterTail₀ cfgs (dats m) 0 (V0 m) [hostOps1] c main_v6 = lossTail (lossArr m c) := by
  unfold Pipeline.afterTail₀
  show StableHlo.after hostOps1 _ (Proc.devRef .tc main_v6) = _
  after_results
  rw [show Pipeline.withArrays (cfgs 0).spec c (V0 m c) (fun w => (dats m 0 c).arrAt w (cfgs 0).N)
      (Proc.devRef .tc main_v2_0) = lossArr m c from
    (Pipeline.withArrays_arr spec0 launch0.win.arr_inj c _ _ 2).trans (lossFinal m c)]
  rfl

/-- The accuracy result likewise. -/
theorem acc_result (c : Dev nD) :
    Pipeline.afterTail₀ cfgs (dats m) 0 (V0 m) [hostOps1] c main_v7 = accTail (hitArr m c) := by
  unfold Pipeline.afterTail₀
  show StableHlo.after hostOps1 _ (Proc.devRef .tc main_v7) = _
  after_results
  rw [show Pipeline.withArrays (cfgs 0).spec c (V0 m c) (fun w => (dats m 0 c).arrAt w (cfgs 0).N)
      (Proc.devRef .tc main_v2_1) = hitArr m c from
    (Pipeline.withArrays_arr spec0 launch0.win.arr_inj c _ _ 3).trans (hitFinal m c)]
  rfl

/-- Every weakly fair execution of the idealized kernel terminates with the two results at these values and the
    argument arrays unchanged. -/
theorem run : θ_run defs (onTc (τ := τ) (main (F := Ideal))) ⟨m, fun _ => 0, ρ⟩ fun r => ∀ c : Dev nD,
      r.2.mem ((c.tc : Thread nD τ).loc main_v6) = lossTail (lossArr m c)
      ∧ r.2.mem ((c.tc : Thread nD τ).loc main_v7) = accTail (hitArr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v6 (Pipeline.mem_restRefs_of main_v6 (by decide) (by decide))).trans (loss_result m c),
      ((h c).2 main_v7 (Pipeline.mem_restRefs_of main_v7 (by decide) (by decide))).trans (acc_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Outcome

end
-- ==== Proof.LibBlockSum.lean ====
/-
  A sum over the first `J * B` natural numbers, taken block by block.
-/
import Mathlib.Algebra.BigOperators.Fin
import Mathlib.Data.Fintype.BigOperators
import Mathlib.Logic.Equiv.Fin.Basic

namespace Cert.Lib

/-- A sum over the first `J * B` naturals is the sum, over the `J` consecutive blocks of `B` naturals, of each
    block's own sum: `∑_{s < J} ∑_{l < B} f (B·s + l) = ∑_{k < J·B} f k`. It holds in any commutative additive monoid
    — only commutativity and associativity of `+` are used —, so also on the extended reals, where no cancellation or
    distributivity is available: the pairs `(s, l)` and the naturals `B·s + l` below `J·B` correspond one to one. -/
theorem sum_blocks {M : Type*} [AddCommMonoid M] (J B : ℕ) (f : ℕ → M) :
    ∑ s ∈ Finset.range J, ∑ l : Fin B, f (B * s + l.val) = ∑ k : Fin (J * B), f k.val := by
  rw [Finset.sum_range (fun s => ∑ l : Fin B, f (B * s + l.val))]
  rw [← Fintype.sum_prod_type' (fun (s : Fin J) (l : Fin B) => f (B * s.val + l.val))]
  refine Fintype.sum_equiv finProdFinEquiv _ _ (fun x => ?_)
  show f (B * x.1.val + x.2.val) = f (x.2.val + B * x.1.val)
  rw [Nat.add_comm]

end Cert.Lib
-- ==== Proof.Regroup.lean ====
/-
  The counting law that joins the two programs' sums.

  The reference adds one term per position `k < 16 777 216` of the flat input. The kernel reads the same input as
  131 072 rows of 128 lanes, gives rows `8192·p … 8192·p + 8191` to grid point `p < 16`, points `8q … 8q + 7` to
  core `q < 2`, and adds, per core and per lane, over the core's eight points and each point's 8192 rows; position
  `k` sits in row `k / 128`, lane `k % 128`. Both are sums of the same terms, each exactly once. Only commutativity
  and associativity of `+` are used, so the law holds on the extended reals as they stand.
-/
import proofs.«174581_j77489799954598_2_alg».proof.Proof.LibBlockSum

open scoped BigOperators

namespace Cert.Bce

/-- Per core `q`, per lane `l`, over the core's eight points `s` and each point's 8192 rows `r`: every position
    `128·(8192·(8q + s) + r) + l` below 16 777 216 is met exactly once. -/
theorem sum_core_lane_point_row {M : Type*} [AddCommMonoid M] (g : ℕ → M) :
    ∑ q : Fin 2, ∑ l : Fin 128, ∑ s ∈ Finset.range 8, ∑ r : Fin 8192,
        g (128 * (8192 * (8 * q.val + s) + r.val) + l.val)
      = ∑ k : Fin 16777216, g k.val := by
  -- positions by rows of 128 lanes
  have rows : ∑ k : Fin 16777216, g k.val = ∑ R ∈ Finset.range 131072, ∑ l : Fin 128, g (128 * R + l.val) :=
    (Cert.Lib.sum_blocks 131072 128 g).symm
  -- rows by points of 8192 rows
  have points : ∀ h : ℕ → M, ∑ R ∈ Finset.range 131072, h R
      = ∑ p ∈ Finset.range 16, ∑ r : Fin 8192, h (8192 * p + r.val) := fun h =>
    ((Cert.Lib.sum_blocks 16 8192 h).trans (Finset.sum_range h).symm).symm
  -- points by cores of eight points
  have cores : ∀ h : ℕ → M, ∑ p ∈ Finset.range 16, h p
      = ∑ q ∈ Finset.range 2, ∑ s : Fin 8, h (8 * q + s.val) := fun h =>
    ((Cert.Lib.sum_blocks 2 8 h).trans (Finset.sum_range h).symm).symm
  rw [rows, points (fun R => ∑ l : Fin 128, g (128 * R + l.val)),
    cores (fun p => ∑ r : Fin 8192, ∑ l : Fin 128, g (128 * (8192 * p + r.val) + l.val)),
    Finset.sum_range (fun q => ∑ s : Fin 8, ∑ r : Fin 8192, ∑ l : Fin 128, g (128 * (8192 * (8 * q + s.val) + r.val) + l.val))]
  refine Finset.sum_congr rfl fun q _ => ?_
  -- bring the lane sum outside the point and row sums
  rw [Finset.sum_comm, Finset.sum_range (fun s => ∑ l : Fin 128, ∑ r : Fin 8192, g (128 * (8192 * (8 * q.val + s) + r.val) + l.val))]
  refine Finset.sum_congr rfl fun s _ => ?_
  exact Finset.sum_comm

end Cert.Bce
-- ==== Proof.LibUnitSum.lean ====
/-
  Sums over index sets with unit axes: a sum over every index of a shape whose axes all have size one but
  one is the sum over that axis's coordinate.
-/
import Idealize.ShloMosaic.Lib.ValueIdx

open scoped BigOperators

namespace Cert.Lib

open Idealize.ShloMosaic Idealize.ShloMosaic.ValueIdx

variable {M : Type*} [AddCommMonoid M]

/-- Over `[1, n]`: the sum over all indices is the sum over the second coordinate. -/
theorem sum_idx_1n {n : ℕ} (f : (⟨2, ![1, n]⟩ : Shape).Idx → M) :
    ∑ i, f i = ∑ l : Fin n, f (ix2 (0 : Fin 1) l) := by
  have hl : ∀ i : (⟨2, ![1, n]⟩ : Shape).Idx, ix2 (0 : Fin 1) (i 1) = i := fun i => by
    funext d
    match d with
    | ⟨0, _⟩ => exact Subsingleton.elim (α := Fin 1) _ _
    | ⟨1, _⟩ => rfl
  let e : (⟨2, ![1, n]⟩ : Shape).Idx ≃ Fin n :=
    { toFun := fun i => i 1, invFun := fun l => ix2 (0 : Fin 1) l, left_inv := hl, right_inv := fun _ => rfl }
  exact Fintype.sum_equiv e _ _ (fun i => congrArg f (hl i).symm)

/-- Over `[1, 1, n]`: the sum over all indices is the sum over the last coordinate. -/
theorem sum_idx_11n {n : ℕ} (f : (⟨3, ![1, 1, n]⟩ : Shape).Idx → M) :
    ∑ i, f i = ∑ l : Fin n, f (ix3 (0 : Fin 1) (0 : Fin 1) l) := by
  have hl : ∀ i : (⟨3, ![1, 1, n]⟩ : Shape).Idx, ix3 (0 : Fin 1) (0 : Fin 1) (i 2) = i := fun i => by
    funext d
    match d with
    | ⟨0, _⟩ => exact Subsingleton.elim (α := Fin 1) _ _
    | ⟨1, _⟩ => exact Subsingleton.elim (α := Fin 1) _ _
    | ⟨2, _⟩ => rfl
  let e : (⟨3, ![1, 1, n]⟩ : Shape).Idx ≃ Fin n :=
    { toFun := fun i => i 2, invFun := fun l => ix3 (0 : Fin 1) (0 : Fin 1) l, left_inv := hl, right_inv := fun _ => rfl }
  exact Fintype.sum_equiv e _ _ (fun i => congrArg f (hl i).symm)

/-- Over `[n, 1, 1]`: the sum over all indices is the sum over the first coordinate. -/
theorem sum_idx_n11 {n : ℕ} (f : (⟨3, ![n, 1, 1]⟩ : Shape).Idx → M) :
    ∑ i, f i = ∑ s : Fin n, f (ix3 s (0 : Fin 1) (0 : Fin 1)) := by
  have hl : ∀ i : (⟨3, ![n, 1, 1]⟩ : Shape).Idx, ix3 (i 0) (0 : Fin 1) (0 : Fin 1) = i := fun i => by
    funext d
    match d with
    | ⟨0, _⟩ => rfl
    | ⟨1, _⟩ => exact Subsingleton.elim (α := Fin 1) _ _
    | ⟨2, _⟩ => exact Subsingleton.elim (α := Fin 1) _ _
  let e : (⟨3, ![n, 1, 1]⟩ : Shape).Idx ≃ Fin n :=
    { toFun := fun i => i 0, invFun := fun s => ix3 s (0 : Fin 1) (0 : Fin 1), left_inv := hl, right_inv := fun _ => rfl }
  exact Fintype.sum_equiv e _ _ (fun i => congrArg f (hl i).symm)

end Cert.Lib
-- ==== Proof.LibPairsByChunks.lean ====
/-
  The counting law behind the kernel: the adjacent pairs of a run of rows, grouped by chunks.

  Rows `0 … n − 1` with `n = (J + 1)(B + 1)` are cut into `J + 1` chunks of `B + 1` consecutive rows. There are `n − 1`
  adjacent pairs `(i, i + 1)`, named by their lower row `i`. Pair `i` lies inside one chunk unless `i` is a chunk's
  last row, in which case it joins that chunk to the next; so the pairs are the `B` inner pairs of each of the
  `J + 1` chunks together with the `J` joining pairs. Any quantity attached to the pairs and summed in a commutative
  monoid can therefore be summed either way. Nothing here needs more than commutativity and associativity of `+`, so
  it holds for sums of extended reals as they stand.
-/
import Idealize.ShloMosaic.Lib.ValueIdx

noncomputable section

open scoped BigOperators

namespace Cert.Lib

open Idealize.ShloMosaic Idealize.ShloMosaic.ValueIdx

/-- THE PAIRS BY CHUNKS: over the lower rows `i < J(B+1) + B` of the adjacent pairs, a sum is the sum over the chunks
    `k ≤ J` of the chunk's `B` inner pairs (lower row `(B+1)k + r`, `r < B`) plus the sum over the `J` joining pairs (lower
    row `(B+1)k + B`, `k < J`). -/
theorem sum_pairs_by_chunks {M : Type*} [AddCommMonoid M] (B J : ℕ) (G : ℕ → M) :
    ∑ i ∈ Finset.range (J * (B + 1) + B), G i
      = ∑ k ∈ Finset.range (J + 1), ∑ r ∈ Finset.range B, G ((B + 1) * k + r)
        + ∑ k ∈ Finset.range J, G ((B + 1) * k + B) := by
  induction J with
  | zero => simp
  | succ J ih =>
    have e : (J + 1) * (B + 1) + B = (J * (B + 1) + B) + (B + 1) := by ring
    have h1 : ∑ x ∈ Finset.range B, G (J * (B + 1) + B + (x + 1)) = ∑ r ∈ Finset.range B, G ((B + 1) * (J + 1) + r) :=
      Finset.sum_congr rfl fun x _ => congrArg G (by ring)
    have h2 : G (J * (B + 1) + B + 0) = G ((B + 1) * J + B) := congrArg G (by ring)
    rw [e, Finset.sum_range_add, ih, Finset.sum_range_succ' (fun x => G (J * (B + 1) + B + x)) B, h1, h2,
      Finset.sum_range_succ (fun k => ∑ r ∈ Finset.range B, G ((B + 1) * k + r)) (J + 1),
      Finset.sum_range_succ (fun k => G ((B + 1) * k + B)) J]
    abel

/-- A sum over every index of a shape `[1, a, b]` is the double sum over the two non-unit coordinates. -/
def idxEquiv1ab {a b : Nat} : (⟨3, ![1, a, b]⟩ : Shape).Idx ≃ Fin a × Fin b where
  toFun i := (i 1, i 2)
  invFun p := ix3 (⟨0, Nat.one_pos⟩ : Fin 1) p.1 p.2
  left_inv i := by
    funext d
    match d with
    | ⟨0, _⟩ => exact Fin.ext (by have h : (i 0).val < 1 := (i 0).isLt; show 0 = (i 0).val; omega)
    | ⟨1, _⟩ => rfl
    | ⟨2, _⟩ => rfl
  right_inv _ := rfl

theorem sum_idx_1ab {M : Type*} [AddCommMonoid M] {a b : Nat} (f : (⟨3, ![1, a, b]⟩ : Shape).Idx → M) :
    ∑ i, f i = ∑ p : Fin a, ∑ q : Fin b, f (ix3 (⟨0, Nat.one_pos⟩ : Fin 1) p q) := by
  rw [← Equiv.sum_comp (idxEquiv1ab (a := a) (b := b)).symm f, Fintype.sum_prod_type]
  rfl

/-- A sum over every index of a rank-1 shape is the sum over its coordinate. -/
def idxEquiv1 {n : Nat} : (⟨1, ![n]⟩ : Shape).Idx ≃ Fin n where
  toFun i := i 0
  invFun p := ix1 p
  left_inv i := (eq_ix1 i).symm
  right_inv _ := rfl

theorem sum_idx1 {M : Type*} [AddCommMonoid M] {n : Nat} (f : (⟨1, ![n]⟩ : Shape).Idx → M) :
    ∑ i, f i = ∑ p : Fin n, f (ix1 p) := by
  rw [← Equiv.sum_comp (idxEquiv1 (n := n)).symm f]
  rfl

end Cert.Lib

end
-- ==== Proof.Bridge.lean ====
/-
  The two programs compute the same two numbers.

  The reference adds, to zero, one term per position of the flat inputs, and closes with the same lines as the
  kernel's host part. The kernel's output arrays hold, per core, the lane sums of the column sums of the same terms.
  By the counting law for core × lane × point × row against position, the two totals agree; only commutativity and
  associativity of addition on the extended reals are used, so nothing is asked of the inputs.
-/
import proofs.«174581_j77489799954598_2_alg».proof.Proof.Outcome
import proofs.«174581_j77489799954598_2_alg».proof.Proof.Regroup
import proofs.«174581_j77489799954598_2_alg».proof.Proof.LibUnitSum
import proofs.«174581_j77489799954598_2_alg».proof.Proof.LibPairsByChunks
import proofs.«174581_j77489799954598_2_alg».proof.Proof.Gen.ReferenceIdeal.Read

noncomputable section

open Idealize.ShloMosaic Idealize.ShloMosaic.TcCoe Idealize.SL.Sem Idealize.ShloMosaic.ValueIdx

namespace Cert.Bridge

open Cert.Bce Cert.KernelIdeal.Blocks Cert.KernelIdeal.Lanes Cert.KernelIdeal.LossArray Cert.KernelIdeal.HitArray Cert.KernelIdeal.Outcome
open Cert.ReferenceIdeal.Read

/-! ## The reference, position by position -/

/-- The reference's selected product at a position is that position's weighted log term. -/
theorem ref_lossTerm (x0 : Cert.ReferenceIdeal.S16777216.Idx → EReal) (x1 : Cert.ReferenceIdeal.S16777216.Idx → BitVec 32)
    (j : Cert.ReferenceIdeal.S16777216.Idx) : val_main_v10 (F := Ideal) x0 x1 j = lossTerm (x0 j) (x1 j) := by
  simp only [val_main_v10_apply, val_main_v1_apply, val_main_v0_apply, val_main_c_apply, val_main_v4_apply,
    val_main_v2_apply, val_main_v3_apply, val_main_cst_apply, val_main_v9_apply, val_main_v7_apply,
    val_main_v6_apply, val_main_v5_apply, val_main_cst_0_apply, val_main_v8_apply, val_main_cst_1_apply]
  rfl

/-- The reference's converted comparison at a position is that position's correct-rounding flag. -/
theorem ref_hitTerm (x0 : Cert.ReferenceIdeal.S16777216.Idx → EReal) (x1 : Cert.ReferenceIdeal.S16777216.Idx → BitVec 32)
    (j : Cert.ReferenceIdeal.S16777216.Idx) : val_main_v17 (F := Ideal) x0 x1 j = hitTerm (x0 j) (x1 j) := by
  simp only [val_main_v17_apply, val_main_v16_apply, val_main_v14_apply, val_main_v15_apply]
  rfl

/-! ## A host sum into a scalar -/

/-- The host's sum of an array into a scalar, from the zero word, is zero plus the sum of every entry. -/
theorem host_sum_all {s : Shape} {axes : List (Fin s.rank)} (h' : s.ReducesTo axes Cert.KernelIdeal.S_)
    (y : s.Idx → EReal) (i : Cert.KernelIdeal.S_.Idx) :
    Host.reduceAdd (F := Ideal) y (constant (F := Ideal) Cert.KernelIdeal.S_ .f32 0x00000000#32) h' Cert.KernelIdeal.Facts₀.h_S_ i
      = 0 + ∑ j : s.Idx, y j := by
  simp only [Host.reduceAdd, Ideal.hostReduceAdd_def]
  refine (Ideal.hostReduceAdd_total h' (fun b => b.elim0) y _ i).trans ?_
  exact congrArg (· + ∑ j : s.Idx, y j) Ideal.ofBits_zero_f32

/-! ## The flat inputs at a position inside their extent -/

variable (m : (ℓ : Loc Cert.KernelIdeal.nD Cert.KernelIdeal.τ Cert.KernelIdeal.sig) → Buf (Elt Ideal) ℓ)

theorem flatX_fin (c : Dev Cert.KernelIdeal.nD) (k : Fin 16777216) :
    flatX m c k.val = (m ((c : Thread Cert.KernelIdeal.nD Cert.KernelIdeal.τ).loc Cert.KernelIdeal.main_arg0)
      : Cert.KernelIdeal.S16777216.Idx → EReal) (ix1 k) := by
  unfold flatX; rw [dif_pos k.isLt]

theorem flatT_fin (c : Dev Cert.KernelIdeal.nD) (k : Fin 16777216) :
    flatT m c k.val = (m ((c : Thread Cert.KernelIdeal.nD Cert.KernelIdeal.τ).loc Cert.KernelIdeal.main_arg1)
      : Cert.KernelIdeal.S16777216.Idx → BitVec 32) (ix1 k) := by
  unfold flatT; rw [dif_pos k.isLt]

/-! ## The totals -/

/-- The loss output array's two entries add up to the sum of the weighted log terms of all positions. -/
theorem sum_lossArr (c : Dev Cert.KernelIdeal.nD) :
    ∑ i : Cert.KernelIdeal.S2x1x1.Idx, lossArr m c i = ∑ k : Fin 16777216, lossAt m c k.val := by
  rw [Cert.Lib.sum_idx_n11]
  refine Eq.trans (Finset.sum_congr rfl fun q _ => lossArr_apply m c _ q.val rfl) ?_
  simp only [zero_add]
  unfold colLoss
  exact sum_core_lane_point_row (lossAt m c)

/-- The accuracy output array's two entries add up to the sum of the correct-rounding flags of all positions. -/
theorem sum_hitArr (c : Dev Cert.KernelIdeal.nD) :
    ∑ i : Cert.KernelIdeal.S2x1x1.Idx, hitArr m c i = ∑ k : Fin 16777216, hitAt m c k.val := by
  rw [Cert.Lib.sum_idx_n11]
  refine Eq.trans (Finset.sum_congr rfl fun q _ => hitArr_apply m c _ q.val rfl) ?_
  simp only [zero_add]
  unfold colHit
  exact sum_core_lane_point_row (hitAt m c)

/-! ## The results -/

/-- The reference's loss, on the kernel's argument arrays, is the kernel's. -/
theorem loss_eq (c : Dev Cert.KernelIdeal.nD) :
    val_main_v13 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
      = lossTail (lossArr m c) := by
  have hs : val_main_v11 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
      = Host.reduceAdd (F := Ideal) (lossArr m c) (constant (F := Ideal) Cert.KernelIdeal.S_ .f32 0x00000000#32)
          Cert.KernelIdeal.Facts₀.reducesTo_S2x1x1_S_d0_1_2 Cert.KernelIdeal.Facts₀.h_S_ := by
    funext i
    rw [val_main_v11_apply, host_sum_all, sum_lossArr, Cert.Lib.sum_idx1]
    refine congrArg₂ (· + ·) Ideal.ofBits_zero_f32 (Finset.sum_congr rfl fun k _ => ?_)
    rw [ref_lossTerm]
    unfold lossAt
    rw [flatX_fin, flatT_fin]
  unfold val_main_v13 val_main_v12 lossTail
  rw [hs]
  rfl

/-- The reference's accuracy, on the kernel's argument arrays, is the kernel's. -/
theorem acc_eq (c : Dev Cert.KernelIdeal.nD) :
    val_main_v19 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
      = accTail (hitArr m c) := by
  have hs : val_main_v18 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
      = Host.reduceAdd (F := Ideal) (hitArr m c) (constant (F := Ideal) Cert.KernelIdeal.S_ .f32 0x00000000#32)
          Cert.KernelIdeal.Facts₀.reducesTo_S2x1x1_S_d0_1_2 Cert.KernelIdeal.Facts₀.h_S_ := by
    funext i
    rw [val_main_v18_apply, host_sum_all, sum_hitArr, Cert.Lib.sum_idx1]
    refine congrArg₂ (· + ·) Ideal.ofBits_zero_f32 (Finset.sum_congr rfl fun k _ => ?_)
    rw [ref_hitTerm]
    unfold hitAt
    rw [flatX_fin, flatT_fin]
  unfold val_main_v19 accTail
  rw [hs]
  rfl

end Cert.Bridge

end
-- ==== Proof.lean ====
/- The class-weighted binary cross-entropy loss and the rounding accuracy of 16 777 216 probabilities against their
   labels: a kernel that streams the inputs as 131 072 rows of 128 lanes over a grid of 2 cores × 8 steps, against the
   reference that computes both numbers from the flat arrays directly.

   Per position with probability `x` and label `t` the loss term is `log x · w₁` if `t = 1` and `log (1 − x) · w₀`
   otherwise, and the accuracy term is 1 if `x` rounded to nearest-even equals `t`, else 0. The reference sums each
   term over all positions from zero, negates the first sum, and divides both by the count. The kernel chooses the
   logarithm's operand and weight before taking one logarithm (the same term, since a choice commutes with what is
   applied to its branches), sums each block's terms down its 8192 rows into a 128-lane accumulator that it carries
   over a core's eight steps from a zero row, sums the lanes at the core's last step into the core's own entry of a
   [2, 1, 1] output, and lets the host add the two cores' entries to zero and close with the reference's own lines.

   Over the extended reals addition is commutative and associative whatever the summands, so the kernel's core × lane
   × step × row arrangement of the sum and the reference's single pass agree term for term: position `k` is row
   `k / 128`, lane `k % 128`, and row `R` belongs to grid point `R / 8192`, which belongs to core `(R / 8192) / 8`.
   Nothing is asked of the inputs for this; the precondition is not used. The ideal pass rewrote nothing, so the
   kernel's idealization is its own text read over the extended reals. The three frames are the generated frame
   certificates of the two kernels and the reference's generated run with its results dropped. -/
import proofs.«174581_j77489799954598_2_alg».proof.Defs
import proofs.«174581_j77489799954598_2_alg».proof.Proof.Gen.Kernel
import proofs.«174581_j77489799954598_2_alg».proof.Proof.Gen.Kernel.Skeleton
import proofs.«174581_j77489799954598_2_alg».proof.Proof.Gen.Kernel.Launch
import proofs.«174581_j77489799954598_2_alg».proof.Proof.Gen.Kernel.Points
import proofs.«174581_j77489799954598_2_alg».proof.Proof.Gen.Kernel.Frame
import proofs.«174581_j77489799954598_2_alg».proof.Proof.Gen.KernelIdeal
import proofs.«174581_j77489799954598_2_alg».proof.Proof.Gen.KernelIdeal.Skeleton
import proofs.«174581_j77489799954598_2_alg».proof.Proof.Gen.KernelIdeal.Launch
import proofs.«174581_j77489799954598_2_alg».proof.Proof.Gen.KernelIdeal.Points
import proofs.«174581_j77489799954598_2_alg».proof.Proof.Gen.KernelIdeal.Frame
import proofs.«174581_j77489799954598_2_alg».proof.Proof.Gen.ReferenceIdeal
import proofs.«174581_j77489799954598_2_alg».proof.Proof.Gen.Pre_finite_inputs
import proofs.«174581_j77489799954598_2_alg».proof.Proof.Gen.ReferenceIdeal.Run
import proofs.«174581_j77489799954598_2_alg».proof.Proof.Gen.ReferenceIdeal.Read
import proofs.«174581_j77489799954598_2_alg».proof.Proof.Bridge
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as launched: its run, with the two results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- The ideal pass rewrote no operation. -/
theorem preserves : Cert.preserves_Kernel_KernelIdeal := trivial

/-- From memories agreeing on the arguments both programs end with the same loss and the same accuracy: the kernel's
    run has them as its closing lines applied to its two output arrays, the reference's run has them as its own
    stages of its arguments, and on equal arguments those are equal. -/
theorem algebraic : Cert.algebraic_KernelIdeal_ReferenceIdeal := by
  intro m ρ m' ρ' _ hagree
  refine ⟨fun c => Cert.KernelIdeal.Outcome.lossTail (Cert.KernelIdeal.LossArray.lossArr m c),
    fun c => Cert.KernelIdeal.Outcome.accTail (Cert.KernelIdeal.HitArray.hitArr m c),
    Cert.KernelIdeal.Outcome.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v13_eq, (hagree c).1, (hagree c).2]
    exact Cert.Bridge.loss_eq m c
  · rw [(h c).2.1, Cert.ReferenceIdeal.Read.val_main_v19_eq, (hagree c).1, (hagree c).2]
    exact Cert.Bridge.acc_eq m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
